-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32x32 .f32) (main_arg7 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x32 .f32) (main_arg1 : IVec S1600000 32) (main_arg2 : IVec S1600000 32) (main_arg3 : FVec F S32x32 .f32) (main_arg4 : FVec F S32x32 .f32) (main_arg5 : FVec F S32 .f32) (main_arg6 : FVec F S32x32 .f32) (main_arg7 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_v13 main_v16
-- ==== Kernel.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S1x32 : Shape := ⟨2, ![1, 32]⟩
abbrev S2000x32 : Shape := ⟨2, ![2000, 32]⟩
abbrev S_ : Shape := ⟨0, ![]⟩
abbrev S100000 : Shape := ⟨1, ![100000]⟩
abbrev S1600000x1 : Shape := ⟨2, ![1600000, 1]⟩
abbrev S1600000x32 : Shape := ⟨2, ![1600000, 32]⟩
abbrev S100000x1 : Shape := ⟨2, ![100000, 1]⟩

abbrev nBuf : Space → Nat
  | .hbm => 60
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S1x32, .f32⟩
  | .hbm, ⟨12, _⟩ => ⟨S1x32, .f32⟩
  | .hbm, ⟨13, _⟩ => ⟨S100000x32, .f32⟩
  | .hbm, ⟨14, _⟩ => ⟨S100000x32, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x32, .f32⟩
  | .hbm, ⟨30, _⟩ => ⟨S_, .f32⟩
  | .hbm, ⟨31, _⟩ => ⟨S100000x32, .f32⟩
  | .hbm, ⟨32, _⟩ => ⟨S1600000x1, .i32⟩
  | .hbm, ⟨33, _⟩ => ⟨S100000x32, .f32⟩
  | .hbm, ⟨34, _⟩ => ⟨S100000x1, .f32⟩
  | .hbm, ⟨35, _⟩ => ⟨S100000x32, .f32⟩
  | .hbm, ⟨36, _⟩ => ⟨S100000x32, .f32⟩
  | .hbm, ⟨37, _⟩ => ⟨S100000x32, .f32⟩
  | .hbm, ⟨38, _⟩ => ⟨S100000x32, .f32⟩
  | .hbm, ⟨39, _⟩ => ⟨S100000x32, .f32⟩
  | .hbm, ⟨40, _⟩ => ⟨S100000x32, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x32, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x32, .f32⟩
  | .hbm, ⟨59, _⟩ => ⟨S1600000x32, .f32⟩
  | .local _ .vmem, ⟨0, _⟩ => ⟨S2000x32, .f32⟩
  | .local _ .vmem, ⟨1, _⟩ => ⟨S2000x32, .f32⟩
  | .local _ .vmem, ⟨2, _⟩ => ⟨S32x32, .f32⟩
  | .local _ .vmem, ⟨3, _⟩ => ⟨S32x32, .f32⟩
  | .local _ .vmem, ⟨4, _⟩ => ⟨S1x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S32x32, .f32⟩
  | .local _ .vmem, ⟨12, _⟩ => ⟨S1x32, .f32⟩
  | .local _ .vmem, ⟨13, _⟩ => ⟨S2000x32, .f32⟩
  | .local _ .vmem, ⟨14, _⟩ => ⟨S2000x32, .f32⟩
  | .local _ .vmem, ⟨15, _⟩ => ⟨S2000x32, .f32⟩
  | .local _ .vmem, ⟨16, _⟩ => ⟨S2000x32, .f32⟩
  | .local _ .vmem, ⟨17, _⟩ => ⟨S32x32, .f32⟩
  | .local _ .vmem, ⟨18, _⟩ => ⟨S32x32, .f32⟩
  | .local _ .vmem, ⟨19, _⟩ => ⟨S1x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  transposes_S32x32_S32x32_1_0 : S32x32.Transposes [1, 0] S32x32
  shapeCasts_S32_S1x32 : S32.ShapeCasts S1x32
  inb_S2000x32_S2000x32_0_0 : ∀ a, (![0, 0] : Fin 2 → Nat) a + S2000x32.size a ≤ S2000x32.size a
  h_S2000x32 : 0 < S2000x32.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  shapeCasts_S2000x32_S2000x32 : S2000x32.ShapeCasts S2000x32
  dot_S2000x32_S32x32_S2000x32_1_0_0_1_n_n_wf : DotDims.WF S2000x32 S32x32 S2000x32 [1] [0] [0] [1] [] []
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x32.size a ≤ S100000x32.size a
  hwx0_4 : ∀ i : grid0.Coords, EltTy.bits .f32 = 32 ∨ (Rect.block (s := S100000x32) S2000x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x32.size a ≤ S100000x32.size a
  hwx0_5 : ∀ i : grid0.Coords, EltTy.bits .f32 = 32 ∨ (Rect.block (s := S100000x32) S2000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x32.size a ≤ S100000x32.size a
  hwx2_4 : ∀ i : grid2.Coords, EltTy.bits .f32 = 32 ∨ (Rect.block (s := S100000x32) S2000x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x32.size a ≤ S100000x32.size a
  hwx2_5 : ∀ i : grid2.Coords, EltTy.bits .f32 = 32 ∨ (Rect.block (s := S100000x32) S2000x32.size (cc2_transform_5 i) (hinb2_5 i)).WholeWords (EltTy.packing .f32)

variable [Facts₀]

def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S2000x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S2000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25_0) S2000x32.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v25_1) S2000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S1x32 : Shape := ⟨2, ![1, 32]⟩
abbrev S1600000x32 : Shape := ⟨2, ![1600000, 32]⟩
abbrev S100000x1 : Shape := ⟨2, ![100000, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S32x32, .f32⟩
  | .hbm, ⟨15, _⟩ => ⟨S100000x32, .f32⟩
  | .hbm, ⟨16, _⟩ => ⟨S32x32, .f32⟩
  | .hbm, ⟨17, _⟩ => ⟨S100000x32, .f32⟩
  | .hbm, ⟨18, _⟩ => ⟨S1x32, .f32⟩
  | .hbm, ⟨19, _⟩ => ⟨S100000x32, .f32⟩
  | .hbm, ⟨20, _⟩ => ⟨S100000x32, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x32, .f32⟩
  | .hbm, ⟨30, _⟩ => ⟨S_, .f32⟩
  | .hbm, ⟨31, _⟩ => ⟨S100000x32, .f32⟩
  | .hbm, ⟨32, _⟩ => ⟨S1600000x1, .i32⟩
  | .hbm, ⟨33, _⟩ => ⟨S100000x32, .f32⟩
  | .hbm, ⟨34, _⟩ => ⟨S100000x1, .f32⟩
  | .hbm, ⟨35, _⟩ => ⟨S100000x32, .f32⟩
  | .hbm, ⟨36, _⟩ => ⟨S100000x32, .f32⟩
  | .hbm, ⟨37, _⟩ => ⟨S100000x32, .f32⟩
  | .hbm, ⟨38, _⟩ => ⟨S32x32, .f32⟩
  | .hbm, ⟨39, _⟩ => ⟨S100000x32, .f32⟩
  | .hbm, ⟨40, _⟩ => ⟨S1x32, .f32⟩
  | .hbm, ⟨41, _⟩ => ⟨S100000x32, .f32⟩
  | .hbm, ⟨42, _⟩ => ⟨S100000x32, .f32⟩
  | .hbm, ⟨43, _⟩ => ⟨S32x32, .f32⟩
  | .hbm, ⟨44, _⟩ => ⟨S100000x32, .f32⟩
  | .hbm, ⟨45, _⟩ => ⟨S32x32, .f32⟩
  | .hbm, ⟨46, _⟩ => ⟨S100000x32, .f32⟩
  | .hbm, ⟨47, _⟩ => ⟨S1x32, .f32⟩
  | .hbm, ⟨48, _⟩ => ⟨S100000x32, .f32⟩
  | .hbm, ⟨49, _⟩ => ⟨S100000x32, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x32, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x32, .f32⟩
  | .hbm, ⟨68, _⟩ => ⟨S1600000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_3 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S32x32_S32x32_1_0 : S32x32.Transposes [1, 0] S32x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S1600000x1_S1600000_n_0_0_1_wf : ScatterDims.WF S100000 S1600000x1 S1600000 [] [0] [0] 1
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KRun.lean ====
/-
  The whole program's run with its result named. The program is three grid regions among stretches of host
  operations; the contents of the core's buffers at each boundary are a fold from the launch memory (host operations
  applied, each region's output arrays at what its write-backs leave). Every weakly fair execution terminates, nothing
  faulting, with the result buffer at the last boundary's contents and the argument arrays as launched.
-/
import proofs.«175405_j25142738550916_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. -/
theorem run : θ_run defs (onTc (τ := τ) (main (F := F))) ⟨m, fun _ => 0, ρ⟩ (fun r => ∀ c : Dev nD,
      r.2.mem ((c.tc : Thread nD τ).loc main_v40) = W6 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v40 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Whole

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.Stored.lean ====
/-
  What each kernel body stores, read at an entry. Every body multiplies its block of 2000 rows by a whole 32 × 32
  matrix into the zero accumulator, and two of the three add a one-row bias broadcast down the rows: the stored
  entry at row p and column q is the sum over k of block(p, k) · matrix(k, q), plus bias(0, q) where there is one.
-/
import proofs.«175405_j25142738550916_1_alg».proof.Proof.Gen.KernelIdeal.Skeleton
import proofs.«175405_j25142738550916_1_alg».proof.Proof.LibMatmulAt
import Idealize.ShloMosaic.Lib.ValueIdx
import Idealize.ShloMosaic.Lib.Pipeline.Value

noncomputable section

namespace Cert.KernelIdeal.Stored

open Idealize.ShloMosaic Idealize.ShloMosaic.ValueIdx Cert.KernelIdeal Cert.KernelIdeal.Gen

variable [Cert.KernelIdeal.Facts]

/-- The block product at an entry. -/
def blockTimes (x0 : Vec Ideal S2000x32 .f32) (x1 : Vec Ideal S32x32 .f32) (p : Fin 2000) (q : Fin 32) : EReal :=
  ∑ k : Fin 32, x0 (ix2 p k) * x1 (ix2 k q)

theorem matmul_at (x0 : Vec Ideal S2000x32 .f32) (x1 : Vec Ideal S32x32 .f32) (p : Fin 2000) (q : Fin 32) :
    matmul (F := Ideal) (φ₁ := .f32) (φ₂ := .f32) dot_S2000x32_S32x32_S2000x32_1_0_0_1_n_n none x0 x1 (constant S2000x32 .f32 0x00000000#32) (ix2 p q)
      = blockTimes x0 x1 p q :=
  Cert.KernelIdeal.Hand.matmul_zero_plain_apply _ rfl none x0 x1 (ix2 p q)

theorem bias_row (x3 : Vec Ideal S1x32 .f32) (p : Fin 2000) (q : Fin 32) :
    broadcastTo S2000x32 (shapeCast S1x32 x3 Facts₀.shapeCasts_S1x32_S1x32) Facts₀.broadcasts_S1x32_S2000x32 (ix2 p q)
      = x3 (ix2 (0 : Fin 1) q) := by
  rw [shapeCast_self]
  refine broadcastTo_apply x3 _ (ix2 p q) (ix2 (0 : Fin 1) q) ?_
  intro a
  match a with
  | ⟨0, _⟩ => rfl
  | ⟨1, _⟩ => rfl

theorem pay0_1 (x0 : Vec Ideal S2000x32 .f32) (x1 : Vec Ideal S32x32 .f32) (p : Fin 2000) (q : Fin 32) :
    k0_pay1 (F := Ideal) x0 x1 (ix2 p q) = blockTimes x0 x1 p q := by
  unfold k0_pay1
  rw [shapeCast_self]
  exact matmul_at x0 x1 p q

theorem pay0_2 (x0 : Vec Ideal S2000x32 .f32) (x2 : Vec Ideal S32x32 .f32) (x3 : Vec Ideal S1x32 .f32) (p : Fin 2000) (q : Fin 32) :
    k0_pay2 (F := Ideal) x0 x2 x3 (ix2 p q) = blockTimes x0 x2 p q + x3 (ix2 (0 : Fin 1) q) := by
  unfold k0_pay2
  rw [addf_apply, bias_row, shapeCast_self, matmul_at]

theorem pay1_1 (x0 : Vec Ideal S2000x32 .f32) (x1 : Vec Ideal S32x32 .f32) (x2 : Vec Ideal S1x32 .f32) (p : Fin 2000) (q : Fin 32) :
    k1_pay1 (F := Ideal) x0 x1 x2 (ix2 p q) = blockTimes x0 x1 p q + x2 (ix2 (0 : Fin 1) q) := by
  unfold k1_pay1
  rw [addf_apply, bias_row, shapeCast_self, shapeCast_self, matmul_at]

theorem pay2_2 (x0 : Vec Ideal S2000x32 .f32) (x1 : Vec Ideal S32x32 .f32) (p : Fin 2000) (q : Fin 32) :
    k2_pay2 (F := Ideal) x0 x1 (ix2 p q) = blockTimes x0 x1 p q := by
  unfold k2_pay2 k2_pay1
  dsimp only
  rw [shapeCast_self, shapeCast_self]
  exact matmul_at x0 x1 p q

theorem pay2_3 (x0 : Vec Ideal S2000x32 .f32) (x2 : Vec Ideal S32x32 .f32) (x3 : Vec Ideal S1x32 .f32) (p : Fin 2000) (q : Fin 32) :
    k2_pay3 (F := Ideal) x0 x2 x3 (ix2 p q) = blockTimes x0 x2 p q + x3 (ix2 (0 : Fin 1) q) := by
  unfold k2_pay3 k2_pay1
  dsimp only
  rw [addf_apply, bias_row, shapeCast_self, shapeCast_self, matmul_at]

end Cert.KernelIdeal.Stored

end
-- ==== Proof.LibRowBias.lean ====
/-
  A vector laid along every row of a matrix, read at an entry. A kernel spells it as the broadcast down the rows of the
  vector's one-row cast; a host program as two broadcasts, first to a one-row matrix along axis 1 and then down the rows.
  Either way the entry at row r and column k is the vector's entry k. Nothing here depends on a program or on the
  element type.
-/
import Idealize.ShloMosaic.Lib.Pipeline.Value
import Idealize.ShloMosaic.Lib.ValueIdx
import Idealize.ShloMosaic.Lib.KernelVsHost

namespace Cert.LibRowBias

open Idealize.ShloMosaic Idealize.ShloMosaic.ValueIdx

variable {α : Type}

/-- The kernel's spelling: the vector cast to one row, the row broadcast down m rows. -/
theorem rowCast_broadcast_apply {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (k : Fin n) :
    broadcastTo ⟨2, ![m, n]⟩ (shapeCast ⟨2, ![1, n]⟩ b h1) hb (ix2 p k) = b (ix1 k) := by
  have e1 := broadcastTo_apply (shapeCast ⟨2, ![1, n]⟩ b h1) hb (ix2 p k) (ix2 (0 : Fin 1) k) (by
    intro a
    match a with
    | ⟨0, _⟩ => rfl
    | ⟨1, _⟩ =>
      show k.val = if n = 1 then 0 else k.val
      split
      · have := k.isLt; omega
      · rfl)
  have e2 := shapeCast_apply b h1 (ix2 (0 : Fin 1) k) (ix1 k) (by
    rw [Shape.rowMajor_val_two, Shape.rowMajor_val_one]; show k.val = 0 * n + k.val; omega)
  exact e1.trans e2

/-- The host's spelling: the vector broadcast along axis 1 to one row, the row broadcast down m rows. -/
theorem row_broadcastInDim_apply {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (k : Fin n) :
    broadcastInDim ⟨2, ![m, n]⟩ ![0, 1] hd2 (broadcastInDim ⟨2, ![1, n]⟩ ![1] hd1 b) (ix2 r k) = b (ix1 k) := by
  refine (broadcastInDim_oneRow_apply hd2 _ r k).trans ?_
  refine broadcastInDim_apply ![1] hd1 b (ix2 (0 : Fin 1) k) (ix1 k) ?_
  intro a
  match a with
  | ⟨0, _⟩ =>
    show k.val = if n = 1 then 0 else k.val
    split
    · have := k.isLt; omega
    · rfl

end Cert.LibRowBias
-- ==== Proof.Spec.lean ====
/-
  One linear layer over the extended reals, entry by entry. For a matrix x of 100000 rows and 32 columns and a
  32 × 32 matrix w, the product's entry at row r and column q is the sum over k of x(r, k) · w(k, q); with a one-row
  bias b the entry gains b(0, q). A host program spells the first as its general product with the plain dimension
  numbers, and the second as that product plus the bias vector laid along every row (broadcast to one row along
  axis 1, then down the rows) — when the one-row bias is the vector's one-row cast. Sums and products only: no entry
  need be finite.
-/
import Idealize.ShloMosaic.Lib.ValueIdx
import Idealize.ShloMosaic.Lib.Pipeline.Value
import Idealize.ShloMosaic.PureOps.Ideal.Laws
import proofs.«175405_j25142738550916_1_alg».proof.Proof.LibMatmulAt
import proofs.«175405_j25142738550916_1_alg».proof.Proof.LibRowBias

noncomputable section

namespace Cert.Linear

open Idealize.ShloMosaic Idealize.ShloMosaic.ValueIdx

abbrev SN : Shape := ⟨2, ![100000, 32]⟩
abbrev SW : Shape := ⟨2, ![32, 32]⟩
abbrev SB : Shape := ⟨2, ![1, 32]⟩
abbrev SV : Shape := ⟨1, ![32]⟩

/-- The product x · w, entry by entry. -/
def rowsTimes (x : FVec Ideal SN .f32) (w : FVec Ideal SW .f32) : FVec Ideal SN .f32 :=
  fun i => ∑ k : Fin 32, x (ix2 (i 0) k) * w (ix2 k (i 1))

/-- The product x · w plus the one-row bias b on every row. -/
def rowsTimesPlus (x : FVec Ideal SN .f32) (w : FVec Ideal SW .f32) (b : FVec Ideal SB .f32) : FVec Ideal SN .f32 :=
  fun i => rowsTimes x w i + b (ix2 (0 : Fin 1) (i 1))

/-- The host's general product with the plain dimension numbers is x · w. -/
theorem rowsTimes_eq_dot (d : DotDims SN SW SN) (hd : d = DotDims.plain 100000 32 32)
    (x : FVec Ideal SN .f32) (w : FVec Ideal SW .f32) :
    rowsTimes x w = Host.dotGeneral (F := Ideal) d none x w :=
  funext fun i => (Cert.KernelIdeal.Hand.dotGeneral_plain_apply' d hd none x w i).symm

/-- The host's product plus the bias vector laid along every row is x · w plus the vector's one-row cast. -/
theorem rowsTimesPlus_eq_dot_add (d : DotDims SN SW SN) (hd : d = DotDims.plain 100000 32 32)
    (x : FVec Ideal SN .f32) (w : FVec Ideal SW .f32) (bv : FVec Ideal SV .f32)
    (h1 : SV.ShapeCasts SB) (hd1 : SV.BroadcastsInDim SB ![1]) (hd2 : SB.BroadcastsInDim SN ![0, 1]) :
    rowsTimesPlus x w (shapeCast SB bv h1)
      = addf (Host.dotGeneral (F := Ideal) d none x w) (broadcastInDim SN ![0, 1] hd2 (broadcastInDim SB ![1] hd1 bv)) := by
  funext i
  rw [addf_apply, ← rowsTimes_eq_dot d hd]
  unfold rowsTimesPlus
  congr 1
  have e2 : shapeCast SB bv h1 (ix2 (0 : Fin 1) (i 1)) = bv (ix1 (i 1)) :=
    shapeCast_apply bv h1 (ix2 (0 : Fin 1) (i 1)) (ix1 (i 1)) (by
      rw [Shape.rowMajor_val_two, Shape.rowMajor_val_one]; show (i 1).val = 0 * 32 + (i 1).val; omega)
  rw [e2]
  conv_rhs => rw [eq_ix2 i]
  exact (Cert.LibRowBias.row_broadcastInDim_apply bv hd1 hd2 (i 0) (i 1)).symm

end Cert.Linear

end
-- ==== Proof.Region0.lean ====
/-
  The first region's two output arrays, each as one function of the arrays the region finds. The grid has 50 points;
  point t fetches rows 2000·t … 2000·t + 1999 of the input matrix, the two 32 × 32 matrices and the one-row bias whole,
  and writes back rows 2000·t … 2000·t + 1999 of each output. So entry (r, q) of the first output is the sum over k of
  input(r, k) · first matrix(k, q), and of the second the same with the second matrix, plus bias(0, q): the 50 blocks
  tile the 100000 rows, and every entry is written by the point r / 2000.
-/
import proofs.«175405_j25142738550916_1_alg».proof.Proof.Gen.KernelIdeal.Frame
import proofs.«175405_j25142738550916_1_alg».proof.Proof.Stored
import proofs.«175405_j25142738550916_1_alg».proof.Proof.Spec

set_option maxRecDepth 16384

noncomputable section

namespace Cert.KernelIdeal.Region0

open Idealize.ShloMosaic Idealize.ShloMosaic.TcCoe Idealize.ShloMosaic.ValueIdx
open Idealize.ShloMosaic.Pipeline (Dat Cfg Window)
open Cert.KernelIdeal Cert.KernelIdeal.Gen Cert.KernelIdeal.Stored Cert.Linear

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the grid: the row-blocked windows sit at block (t, 0), the whole ones at (0, 0). -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem lt50 (t : Fin cfg0.N) : t.val < 50 := lt_of_lt_of_eq t.isLt N_0

/-- Row p of point t's block is row 2000·t + p of the array. -/
def rowAt (t : Fin cfg0.N) (p : Fin 2000) : Fin 100000 := ⟨t.val * 2000 + p.val, by have := lt50 t; omega⟩

/-- The input matrix's block at point t, read at (p, k). -/
theorem blk0_at (c : Dev nD) (t : Fin cfg0.N) (p : Fin 2000) (k : Fin 32) :
    iblk0 V c 0 t (ix2 p k) = V c main_arg0 (ix2 (rowAt t p) k) := by
  obtain ⟨e00, e01, -⟩ := block_positions t
  show V c main_arg0 (((cfg0.win 0).blk t).view.emb (ix2 p k)) = V c main_arg0 (ix2 (rowAt t p) k)
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 32 + 1 * k.val = k.val; omega

/-- The first matrix's block is the whole matrix. -/
theorem blk1_at (c : Dev nD) (t : Fin cfg0.N) (k q : Fin 32) :
    iblk0 V c 1 t (ix2 k q) = V c main_v0 (ix2 k q) := by
  obtain ⟨-, -, e10, e11, -⟩ := block_positions t
  show V c main_v0 (((cfg0.win 1).blk t).view.emb (ix2 k q)) = V c main_v0 (ix2 k q)
  refine congrArg (V c main_v0) (funext fun a => Fin.ext ?_)
  match a with
  | ⟨0, _⟩ => show win0_1.index t (0 : Fin 2) * 32 + 1 * k.val = k.val; omega
  | ⟨1, _⟩ => show win0_1.index t (1 : Fin 2) * 32 + 1 * q.val = q.val; omega

/-- The second matrix's block is the whole matrix. -/
theorem blk2_at (c : Dev nD) (t : Fin cfg0.N) (k q : Fin 32) :
    iblk0 V c 2 t (ix2 k q) = V c main_v1 (ix2 k q) := by
  obtain ⟨-, -, -, -, e20, e21, -⟩ := block_positions t
  show V c main_v1 (((cfg0.win 2).blk t).view.emb (ix2 k q)) = V c main_v1 (ix2 k q)
  refine congrArg (V c main_v1) (funext fun a => Fin.ext ?_)
  match a with
  | ⟨0, _⟩ => show win0_2.index t (0 : Fin 2) * 32 + 1 * k.val = k.val; omega
  | ⟨1, _⟩ => show win0_2.index t (1 : Fin 2) * 32 + 1 * q.val = q.val; omega

/-- The bias row's block is the whole row. -/
theorem blk3_at (c : Dev nD) (t : Fin cfg0.N) (q : Fin 32) :
    iblk0 V c 3 t (ix2 (0 : Fin 1) q) = V c main_v3 (ix2 (0 : Fin 1) q) := by
  obtain ⟨-, -, -, -, -, -, e30, e31, -⟩ := block_positions t
  show V c main_v3 (((cfg0.win 3).blk t).view.emb (ix2 (0 : Fin 1) q)) = V c main_v3 (ix2 (0 : Fin 1) q)
  refine congrArg (V c main_v3) (funext fun a => Fin.ext ?_)
  match a with
  | ⟨0, _⟩ => show win0_3.index t (0 : Fin 2) * 1 + 1 * 0 = 0; omega
  | ⟨1, _⟩ => show win0_3.index t (1 : Fin 2) * 32 + 1 * q.val = q.val; omega

/-- Entry (p, q) of an output block sits at entry (2000·t + p, q) of its array. -/
theorem emb4_at (t : Fin cfg0.N) (p : Fin 2000) (q : Fin 32) :
    ((cfg0.win 4).blk t).view.emb (ix2 p q) = (ix2 (rowAt t p) q : S100000x32.Idx) := by
  obtain ⟨-, -, -, -, -, -, -, -, e40, e41, -⟩ := block_positions t
  refine funext fun a => Fin.ext ?_
  match a with
  | ⟨0, _⟩ => show win0_4.index t (0 : Fin 2) * 2000 + 1 * p.val = t.val * 2000 + p.val; omega
  | ⟨1, _⟩ => show win0_4.index t (1 : Fin 2) * 32 + 1 * q.val = q.val; omega

theorem emb5_at (t : Fin cfg0.N) (p : Fin 2000) (q : Fin 32) :
    ((cfg0.win 5).blk t).view.emb (ix2 p q) = (ix2 (rowAt t p) q : S100000x32.Idx) := by
  obtain ⟨-, -, -, -, -, -, -, -, -, -, e50, e51⟩ := block_positions t
  refine funext fun a => Fin.ext ?_
  match a with
  | ⟨0, _⟩ => show win0_5.index t (0 : Fin 2) * 2000 + 1 * p.val = t.val * 2000 + p.val; omega
  | ⟨1, _⟩ => show win0_5.index t (1 : Fin 2) * 32 + 1 * q.val = q.val; omega

/-- The block product over point t's blocks is the rows' product over the arrays at row 2000·t + p. -/
theorem blockTimes1_at (c : Dev nD) (t : Fin cfg0.N) (p : Fin 2000) (q : Fin 32) :
    blockTimes (iblk0 V c 0 t) (iblk0 V c 1 t) p q = rowsTimes (V c main_arg0) (V c main_v0) (ix2 (rowAt t p) q) :=
  Finset.sum_congr rfl fun k _ => by rw [blk0_at V c t p k, blk1_at V c t k q]

theorem blockTimes2_at (c : Dev nD) (t : Fin cfg0.N) (p : Fin 2000) (q : Fin 32) :
    blockTimes (iblk0 V c 0 t) (iblk0 V c 2 t) p q = rowsTimes (V c main_arg0) (V c main_v1) (ix2 (rowAt t p) q) :=
  Finset.sum_congr rfl fun k _ => by rw [blk0_at V c t p k, blk2_at V c t k q]

/-- What point t writes back to the first output is block t of the rows' product. -/
theorem written4_eq (c : Dev nD) (t : Fin cfg0.N) :
    (dat0 V c).flushed 4 t = ((cfg0.win 4).blk t).view.read (Elt Ideal) (rowsTimes (V c main_arg0) (V c main_v0)) := by
  show (cfg0.win 4).cut (grid0.coords t) ((dat0 V c).after 4 t) = _
  rw [after0_4]
  unfold out0_4
  rw [View.canon_unit_zero origin_zero]
  simp only [View.ld_unit_zero (S := S2000x32) origin_zero, View.ld_unit_zero (S := S32x32) origin_zero]
  funext j
  obtain ⟨p, q, rfl⟩ : ∃ (p : Fin 2000) (q : Fin 32), j = ix2 p q := ⟨j 0, j 1, eq_ix2 j⟩
  show k0_pay1 (iblk0 V c 0 t) (iblk0 V c 1 t) (ix2 p q) = rowsTimes (V c main_arg0) (V c main_v0) (((cfg0.win 4).blk t).view.emb (ix2 p q))
  rw [emb4_at t p q]
  exact (pay0_1 (iblk0 V c 0 t) (iblk0 V c 1 t) p q).trans (blockTimes1_at V c t p q)

/-- What point t writes back to the second output is block t of the rows' product plus the bias row. -/
theorem written5_eq (c : Dev nD) (t : Fin cfg0.N) :
    (dat0 V c).flushed 5 t = ((cfg0.win 5).blk t).view.read (Elt Ideal) (rowsTimesPlus (V c main_arg0) (V c main_v1) (V c main_v3)) := by
  show (cfg0.win 5).cut (grid0.coords t) ((dat0 V c).after 5 t) = _
  rw [after0_5]
  unfold out0_5
  rw [View.canon_unit_zero origin_zero]
  simp only [View.ld_unit_zero (S := S2000x32) origin_zero, View.ld_unit_zero (S := S32x32) origin_zero, View.ld_unit_zero (S := S1x32) origin_zero]
  funext j
  obtain ⟨p, q, rfl⟩ : ∃ (p : Fin 2000) (q : Fin 32), j = ix2 p q := ⟨j 0, j 1, eq_ix2 j⟩
  show k0_pay2 (iblk0 V c 0 t) (iblk0 V c 2 t) (iblk0 V c 3 t) (ix2 p q) = rowsTimesPlus (V c main_arg0) (V c main_v1) (V c main_v3) (((cfg0.win 5).blk t).view.emb (ix2 p q))
  rw [emb5_at t p q]
  refine (pay0_2 (iblk0 V c 0 t) (iblk0 V c 2 t) (iblk0 V c 3 t) p q).trans ?_
  rw [blockTimes2_at V c t p q, blk3_at V c t q]
  rfl

/-- An index of the array is in point t's block iff each coordinate is in the block's range on its axis. -/
theorem in_block4_iff (t : Fin cfg0.N) (i : S100000x32.Idx) :
    i ∈ ((cfg0.win 4).blk t).view.set ↔ ∀ a : Fin 2, win0_4.index t a * S2000x32.size a ≤ (i a).val ∧ (i a).val < win0_4.index t a * S2000x32.size a + S2000x32.size a := by
  show i ∈ ((View.whole main_v5_0).slice (win0_4.rect t)).set ↔ _
  rw [View.set_slice_whole, Rect.mem_set_unit]
  exact Iff.rfl

theorem in_block5_iff (t : Fin cfg0.N) (i : S100000x32.Idx) :
    i ∈ ((cfg0.win 5).blk t).view.set ↔ ∀ a : Fin 2, win0_5.index t a * S2000x32.size a ≤ (i a).val ∧ (i a).val < win0_5.index t a * S2000x32.size a + S2000x32.size a := by
  show i ∈ ((View.whole main_v5_1).slice (win0_5.rect t)).set ↔ _
  rw [View.set_slice_whole, Rect.mem_set_unit]
  exact Iff.rfl

/-- The point that writes row r is r / 2000. -/
def pointOf (i : S100000x32.Idx) : Fin cfg0.N :=
  ⟨(i 0).val / 2000, by rw [show cfg0.N = 50 from N_0]; have := idx2_lt0 i; omega⟩

theorem rows_tiled4 (i : S100000x32.Idx) : ∃ t : Fin cfg0.N, (cfg0.win 4).flush t = true ∧ i ∈ ((cfg0.win 4).blk t).view.set := by
  refine ⟨pointOf i, flush0_4 _, ?_⟩
  obtain ⟨-, -, -, -, -, -, -, -, e40, e41, -⟩ := block_positions (pointOf i)
  have ht : (pointOf i).val = (i 0).val / 2000 := rfl
  have h0 := idx2_lt0 i
  have h1 := idx2_lt1 i
  rw [in_block4_iff]
  intro a
  match a with
  | ⟨0, _⟩ => show win0_4.index (pointOf i) (0 : Fin 2) * 2000 ≤ (i 0).val ∧ (i 0).val < win0_4.index (pointOf i) (0 : Fin 2) * 2000 + 2000; omega
  | ⟨1, _⟩ => show win0_4.index (pointOf i) (1 : Fin 2) * 32 ≤ (i 1).val ∧ (i 1).val < win0_4.index (pointOf i) (1 : Fin 2) * 32 + 32; omega

theorem rows_tiled5 (i : S100000x32.Idx) : ∃ t : Fin cfg0.N, (cfg0.win 5).flush t = true ∧ i ∈ ((cfg0.win 5).blk t).view.set := by
  refine ⟨pointOf i, flush0_5 _, ?_⟩
  obtain ⟨-, -, -, -, -, -, -, -, -, -, e50, e51⟩ := block_positions (pointOf i)
  have ht : (pointOf i).val = (i 0).val / 2000 := rfl
  have h0 := idx2_lt0 i
  have h1 := idx2_lt1 i
  rw [in_block5_iff]
  intro a
  match a with
  | ⟨0, _⟩ => show win0_5.index (pointOf i) (0 : Fin 2) * 2000 ≤ (i 0).val ∧ (i 0).val < win0_5.index (pointOf i) (0 : Fin 2) * 2000 + 2000; omega
  | ⟨1, _⟩ => show win0_5.index (pointOf i) (1 : Fin 2) * 32 ≤ (i 1).val ∧ (i 1).val < win0_5.index (pointOf i) (1 : Fin 2) * 32 + 32; omega

/-- The first output array after the region: the rows' product of the input matrix with the first matrix. -/
theorem array4_eq (c : Dev nD) : (dat0 V c).arrAt 4 cfg0.N = rowsTimes (V c main_arg0) (V c main_v0) :=
  (dat0 V c).arrAt_eq_of_cover 4 _ (fun t _ => written4_eq V c t) rows_tiled4

/-- The second output array after the region: the rows' product with the second matrix plus the bias row. -/
theorem array5_eq (c : Dev nD) : (dat0 V c).arrAt 5 cfg0.N = rowsTimesPlus (V c main_arg0) (V c main_v1) (V c main_v3) :=
  (dat0 V c).arrAt_eq_of_cover 5 _ (fun t _ => written5_eq V c t) rows_tiled5

end Cert.KernelIdeal.Region0

end
-- ==== Proof.Region1.lean ====
/-
  The second region's output array as one function of the arrays the region finds. The grid has 50 points; point t
  fetches rows 2000·t … 2000·t + 1999 of the input matrix, the 32 × 32 matrix and the one-row bias whole, and writes
  back rows 2000·t … 2000·t + 1999 of the output: entry (r, q) is the sum over k of input(r, k) · matrix(k, q), plus
  bias(0, q). The 50 blocks tile the 100000 rows, and every entry is written by the point r / 2000.
-/
import proofs.«175405_j25142738550916_1_alg».proof.Proof.Gen.KernelIdeal.Frame
import proofs.«175405_j25142738550916_1_alg».proof.Proof.Stored
import proofs.«175405_j25142738550916_1_alg».proof.Proof.Spec

set_option maxRecDepth 16384

noncomputable section

namespace Cert.KernelIdeal.Region1

open Idealize.ShloMosaic Idealize.ShloMosaic.TcCoe Idealize.ShloMosaic.ValueIdx
open Idealize.ShloMosaic.Pipeline (Dat Cfg Window)
open Cert.KernelIdeal Cert.KernelIdeal.Gen Cert.KernelIdeal.Stored Cert.Linear

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the grid: the row-blocked windows sit at block (t, 0), the whole ones at (0, 0). -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt50 (t : Fin cfg1.N) : t.val < 50 := lt_of_lt_of_eq t.isLt N_1

/-- Row p of point t's block is row 2000·t + p of the array. -/
def rowAt (t : Fin cfg1.N) (p : Fin 2000) : Fin 100000 := ⟨t.val * 2000 + p.val, by have := lt50 t; omega⟩

/-- The input matrix's block at point t, read at (p, k). -/
theorem blk0_at (c : Dev nD) (t : Fin cfg1.N) (p : Fin 2000) (k : Fin 32) :
    iblk1 V c 0 t (ix2 p k) = V c main_v23 (ix2 (rowAt t p) k) := by
  obtain ⟨e00, e01, -⟩ := block_positions t
  show V c main_v23 (((cfg1.win 0).blk t).view.emb (ix2 p k)) = V c main_v23 (ix2 (rowAt t p) k)
  refine congrArg (V c main_v23) (funext fun a => Fin.ext ?_)
  match a with
  | ⟨0, _⟩ => show win1_0.index t (0 : Fin 2) * 2000 + 1 * p.val = t.val * 2000 + p.val; omega
  | ⟨1, _⟩ => show win1_0.index t (1 : Fin 2) * 32 + 1 * k.val = k.val; omega

/-- The matrix's block is the whole matrix. -/
theorem blk1_at (c : Dev nD) (t : Fin cfg1.N) (k q : Fin 32) :
    iblk1 V c 1 t (ix2 k q) = V c main_v2 (ix2 k q) := by
  obtain ⟨-, -, e10, e11, -⟩ := block_positions t
  show V c main_v2 (((cfg1.win 1).blk t).view.emb (ix2 k q)) = V c main_v2 (ix2 k q)
  refine congrArg (V c main_v2) (funext fun a => Fin.ext ?_)
  match a with
  | ⟨0, _⟩ => show win1_1.index t (0 : Fin 2) * 32 + 1 * k.val = k.val; omega
  | ⟨1, _⟩ => show win1_1.index t (1 : Fin 2) * 32 + 1 * q.val = q.val; omega

/-- The bias row's block is the whole row. -/
theorem blk2_at (c : Dev nD) (t : Fin cfg1.N) (q : Fin 32) :
    iblk1 V c 2 t (ix2 (0 : Fin 1) q) = V c main_v4 (ix2 (0 : Fin 1) q) := by
  obtain ⟨-, -, -, -, e20, e21, -⟩ := block_positions t
  show V c main_v4 (((cfg1.win 2).blk t).view.emb (ix2 (0 : Fin 1) q)) = V c main_v4 (ix2 (0 : Fin 1) q)
  refine congrArg (V c main_v4) (funext fun a => Fin.ext ?_)
  match a with
  | ⟨0, _⟩ => show win1_2.index t (0 : Fin 2) * 1 + 1 * 0 = 0; omega
  | ⟨1, _⟩ => show win1_2.index t (1 : Fin 2) * 32 + 1 * q.val = q.val; omega

/-- Entry (p, q) of an output block sits at entry (2000·t + p, q) of its array. -/
theorem emb3_at (t : Fin cfg1.N) (p : Fin 2000) (q : Fin 32) :
    ((cfg1.win 3).blk t).view.emb (ix2 p q) = (ix2 (rowAt t p) q : S100000x32.Idx) := by
  obtain ⟨-, -, -, -, -, -, e30, e31⟩ := block_positions t
  refine funext fun a => Fin.ext ?_
  match a with
  | ⟨0, _⟩ => show win1_3.index t (0 : Fin 2) * 2000 + 1 * p.val = t.val * 2000 + p.val; omega
  | ⟨1, _⟩ => show win1_3.index t (1 : Fin 2) * 32 + 1 * q.val = q.val; omega

/-- The block product over point t's blocks is the rows' product over the arrays at row 2000·t + p. -/
theorem blockTimes1_at (c : Dev nD) (t : Fin cfg1.N) (p : Fin 2000) (q : Fin 32) :
    blockTimes (iblk1 V c 0 t) (iblk1 V c 1 t) p q = rowsTimes (V c main_v23) (V c main_v2) (ix2 (rowAt t p) q) :=
  Finset.sum_congr rfl fun k _ => by rw [blk0_at V c t p k, blk1_at V c t k q]

/-- What point t writes back is block t of the rows' product plus the bias row. -/
theorem written3_eq (c : Dev nD) (t : Fin cfg1.N) :
    (dat1 V c).flushed 3 t = ((cfg1.win 3).blk t).view.read (Elt Ideal) (rowsTimesPlus (V c main_v23) (V c main_v2) (V c main_v4)) := by
  show (cfg1.win 3).cut (grid1.coords t) ((dat1 V c).after 3 t) = _
  rw [after1_3]
  unfold out1_3
  rw [View.canon_unit_zero origin_zero]
  simp only [View.ld_unit_zero (S := S2000x32) origin_zero, View.ld_unit_zero (S := S32x32) origin_zero, View.ld_unit_zero (S := S1x32) origin_zero]
  funext j
  obtain ⟨p, q, rfl⟩ : ∃ (p : Fin 2000) (q : Fin 32), j = ix2 p q := ⟨j 0, j 1, eq_ix2 j⟩
  show k1_pay1 (iblk1 V c 0 t) (iblk1 V c 1 t) (iblk1 V c 2 t) (ix2 p q) = rowsTimesPlus (V c main_v23) (V c main_v2) (V c main_v4) (((cfg1.win 3).blk t).view.emb (ix2 p q))
  rw [emb3_at t p q]
  refine (pay1_1 (iblk1 V c 0 t) (iblk1 V c 1 t) (iblk1 V c 2 t) p q).trans ?_
  rw [blockTimes1_at V c t p q, blk2_at V c t q]
  rfl

/-- An index of the array is in point t's block iff each coordinate is in the block's range on its axis. -/
theorem in_block3_iff (t : Fin cfg1.N) (i : S100000x32.Idx) :
    i ∈ ((cfg1.win 3).blk t).view.set ↔ ∀ a : Fin 2, win1_3.index t a * S2000x32.size a ≤ (i a).val ∧ (i a).val < win1_3.index t a * S2000x32.size a + S2000x32.size a := by
  show i ∈ ((View.whole main_v24).slice (win1_3.rect t)).set ↔ _
  rw [View.set_slice_whole, Rect.mem_set_unit]
  exact Iff.rfl

/-- The point that writes row r is r / 2000. -/
def pointOf (i : S100000x32.Idx) : Fin cfg1.N :=
  ⟨(i 0).val / 2000, by rw [show cfg1.N = 50 from N_1]; have := idx2_lt0 i; omega⟩

theorem rows_tiled3 (i : S100000x32.Idx) : ∃ t : Fin cfg1.N, (cfg1.win 3).flush t = true ∧ i ∈ ((cfg1.win 3).blk t).view.set := by
  refine ⟨pointOf i, flush1_3 _, ?_⟩
  obtain ⟨-, -, -, -, -, -, e30, e31⟩ := block_positions (pointOf i)
  have ht : (pointOf i).val = (i 0).val / 2000 := rfl
  have h0 := idx2_lt0 i
  have h1 := idx2_lt1 i
  rw [in_block3_iff]
  intro a
  match a with
  | ⟨0, _⟩ => show win1_3.index (pointOf i) (0 : Fin 2) * 2000 ≤ (i 0).val ∧ (i 0).val < win1_3.index (pointOf i) (0 : Fin 2) * 2000 + 2000; omega
  | ⟨1, _⟩ => show win1_3.index (pointOf i) (1 : Fin 2) * 32 ≤ (i 1).val ∧ (i 1).val < win1_3.index (pointOf i) (1 : Fin 2) * 32 + 32; omega

/-- The output array after the region: the rows' product of the input matrix with the matrix, plus the bias row. -/
theorem array3_eq (c : Dev nD) : (dat1 V c).arrAt 3 cfg1.N = rowsTimesPlus (V c main_v23) (V c main_v2) (V c main_v4) :=
  (dat1 V c).arrAt_eq_of_cover 3 _ (fun t _ => written3_eq V c t) rows_tiled3

end Cert.KernelIdeal.Region1

end
-- ==== Proof.Region2.lean ====
/-
  The third region's two output arrays, each as one function of the arrays the region finds. It runs the same body as
  the first region on other arrays: point t of its 50 fetches rows 2000·t … 2000·t + 1999 of its input matrix, the two
  32 × 32 matrices and the one-row bias whole, and writes back the same rows of each output. Entry (r, q) of the first
  output is the sum over k of input(r, k) · first matrix(k, q); of the second the same with the second matrix, plus
  bias(0, q).
-/
import proofs.«175405_j25142738550916_1_alg».proof.Proof.Gen.KernelIdeal.Frame
import proofs.«175405_j25142738550916_1_alg».proof.Proof.Stored
import proofs.«175405_j25142738550916_1_alg».proof.Proof.Spec

set_option maxRecDepth 16384

noncomputable section

namespace Cert.KernelIdeal.Region2

open Idealize.ShloMosaic Idealize.ShloMosaic.TcCoe Idealize.ShloMosaic.ValueIdx
open Idealize.ShloMosaic.Pipeline (Dat Cfg Window)
open Cert.KernelIdeal Cert.KernelIdeal.Gen Cert.KernelIdeal.Stored Cert.Linear

variable (V : (c : Dev nD) → (b : Ref sig .tc) → Buf (Elt Ideal) ((c : Thread nD τ).loc b))

theorem origin_zero : (![0, 0] : Fin 2 → Nat) = fun _ => 0 := funext fun a => by fin_cases a <;> rfl

/-- The printed index maps over the grid: the row-blocked windows sit at block (t, 0), the whole ones at (0, 0). -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem lt50 (t : Fin cfg2.N) : t.val < 50 := lt_of_lt_of_eq t.isLt N_2

/-- Row p of point t's block is row 2000·t + p of the array. -/
def rowAt (t : Fin cfg2.N) (p : Fin 2000) : Fin 100000 := ⟨t.val * 2000 + p.val, by have := lt50 t; omega⟩

/-- The input matrix's block at point t, read at (p, k). -/
theorem blk0_at (c : Dev nD) (t : Fin cfg2.N) (p : Fin 2000) (k : Fin 32) :
    iblk2 V c 0 t (ix2 p k) = V c main_v24 (ix2 (rowAt t p) k) := by
  obtain ⟨e00, e01, -⟩ := block_positions t
  show V c main_v24 (((cfg2.win 0).blk t).view.emb (ix2 p k)) = V c main_v24 (ix2 (rowAt t p) k)
  refine congrArg (V c main_v24) (funext fun a => Fin.ext ?_)
  match a with
  | ⟨0, _⟩ => show win2_0.index t (0 : Fin 2) * 2000 + 1 * p.val = t.val * 2000 + p.val; omega
  | ⟨1, _⟩ => show win2_0.index t (1 : Fin 2) * 32 + 1 * k.val = k.val; omega

/-- The first matrix's block is the whole matrix. -/
theorem blk1_at (c : Dev nD) (t : Fin cfg2.N) (k q : Fin 32) :
    iblk2 V c 1 t (ix2 k q) = V c main_v0 (ix2 k q) := by
  obtain ⟨-, -, e10, e11, -⟩ := block_positions t
  show V c main_v0 (((cfg2.win 1).blk t).view.emb (ix2 k q)) = V c main_v0 (ix2 k q)
  refine congrArg (V c main_v0) (funext fun a => Fin.ext ?_)
  match a with
  | ⟨0, _⟩ => show win2_1.index t (0 : Fin 2) * 32 + 1 * k.val = k.val; omega
  | ⟨1, _⟩ => show win2_1.index t (1 : Fin 2) * 32 + 1 * q.val = q.val; omega

/-- The second matrix's block is the whole matrix. -/
theorem blk2_at (c : Dev nD) (t : Fin cfg2.N) (k q : Fin 32) :
    iblk2 V c 2 t (ix2 k q) = V c main_v1 (ix2 k q) := by
  obtain ⟨-, -, -, -, e20, e21, -⟩ := block_positions t
  show V c main_v1 (((cfg2.win 2).blk t).view.emb (ix2 k q)) = V c main_v1 (ix2 k q)
  refine congrArg (V c main_v1) (funext fun a => Fin.ext ?_)
  match a with
  | ⟨0, _⟩ => show win2_2.index t (0 : Fin 2) * 32 + 1 * k.val = k.val; omega
  | ⟨1, _⟩ => show win2_2.index t (1 : Fin 2) * 32 + 1 * q.val = q.val; omega

/-- The bias row's block is the whole row. -/
theorem blk3_at (c : Dev nD) (t : Fin cfg2.N) (q : Fin 32) :
    iblk2 V c 3 t (ix2 (0 : Fin 1) q) = V c main_v3 (ix2 (0 : Fin 1) q) := by
  obtain ⟨-, -, -, -, -, -, e30, e31, -⟩ := block_positions t
  show V c main_v3 (((cfg2.win 3).blk t).view.emb (ix2 (0 : Fin 1) q)) = V c main_v3 (ix2 (0 : Fin 1) q)
  refine congrArg (V c main_v3) (funext fun a => Fin.ext ?_)
  match a with
  | ⟨0, _⟩ => show win2_3.index t (0 : Fin 2) * 1 + 1 * 0 = 0; omega
  | ⟨1, _⟩ => show win2_3.index t (1 : Fin 2) * 32 + 1 * q.val = q.val; omega

/-- Entry (p, q) of an output block sits at entry (2000·t + p, q) of its array. -/
theorem emb4_at (t : Fin cfg2.N) (p : Fin 2000) (q : Fin 32) :
    ((cfg2.win 4).blk t).view.emb (ix2 p q) = (ix2 (rowAt t p) q : S100000x32.Idx) := by
  obtain ⟨-, -, -, -, -, -, -, -, e40, e41, -⟩ := block_positions t
  refine funext fun a => Fin.ext ?_
  match a with
  | ⟨0, _⟩ => show win2_4.index t (0 : Fin 2) * 2000 + 1 * p.val = t.val * 2000 + p.val; omega
  | ⟨1, _⟩ => show win2_4.index t (1 : Fin 2) * 32 + 1 * q.val = q.val; omega

theorem emb5_at (t : Fin cfg2.N) (p : Fin 2000) (q : Fin 32) :
    ((cfg2.win 5).blk t).view.emb (ix2 p q) = (ix2 (rowAt t p) q : S100000x32.Idx) := by
  obtain ⟨-, -, -, -, -, -, -, -, -, -, e50, e51⟩ := block_positions t
  refine funext fun a => Fin.ext ?_
  match a with
  | ⟨0, _⟩ => show win2_5.index t (0 : Fin 2) * 2000 + 1 * p.val = t.val * 2000 + p.val; omega
  | ⟨1, _⟩ => show win2_5.index t (1 : Fin 2) * 32 + 1 * q.val = q.val; omega

/-- The block product over point t's blocks is the rows' product over the arrays at row 2000·t + p. -/
theorem blockTimes1_at (c : Dev nD) (t : Fin cfg2.N) (p : Fin 2000) (q : Fin 32) :
    blockTimes (iblk2 V c 0 t) (iblk2 V c 1 t) p q = rowsTimes (V c main_v24) (V c main_v0) (ix2 (rowAt t p) q) :=
  Finset.sum_congr rfl fun k _ => by rw [blk0_at V c t p k, blk1_at V c t k q]

theorem blockTimes2_at (c : Dev nD) (t : Fin cfg2.N) (p : Fin 2000) (q : Fin 32) :
    blockTimes (iblk2 V c 0 t) (iblk2 V c 2 t) p q = rowsTimes (V c main_v24) (V c main_v1) (ix2 (rowAt t p) q) :=
  Finset.sum_congr rfl fun k _ => by rw [blk0_at V c t p k, blk2_at V c t k q]

/-- What point t writes back to the first output is block t of the rows' product. -/
theorem written4_eq (c : Dev nD) (t : Fin cfg2.N) :
    (dat2 V c).flushed 4 t = ((cfg2.win 4).blk t).view.read (Elt Ideal) (rowsTimes (V c main_v24) (V c main_v0)) := by
  show (cfg2.win 4).cut (grid2.coords t) ((dat2 V c).after 4 t) = _
  rw [after2_4]
  unfold out2_4
  rw [View.canon_unit_zero origin_zero]
  simp only [View.ld_unit_zero (S := S2000x32) origin_zero, View.ld_unit_zero (S := S32x32) origin_zero]
  funext j
  obtain ⟨p, q, rfl⟩ : ∃ (p : Fin 2000) (q : Fin 32), j = ix2 p q := ⟨j 0, j 1, eq_ix2 j⟩
  show k2_pay2 (iblk2 V c 0 t) (iblk2 V c 1 t) (ix2 p q) = rowsTimes (V c main_v24) (V c main_v0) (((cfg2.win 4).blk t).view.emb (ix2 p q))
  rw [emb4_at t p q]
  exact (pay2_2 (iblk2 V c 0 t) (iblk2 V c 1 t) p q).trans (blockTimes1_at V c t p q)

/-- What point t writes back to the second output is block t of the rows' product plus the bias row. -/
theorem written5_eq (c : Dev nD) (t : Fin cfg2.N) :
    (dat2 V c).flushed 5 t = ((cfg2.win 5).blk t).view.read (Elt Ideal) (rowsTimesPlus (V c main_v24) (V c main_v1) (V c main_v3)) := by
  show (cfg2.win 5).cut (grid2.coords t) ((dat2 V c).after 5 t) = _
  rw [after2_5]
  unfold out2_5
  rw [View.canon_unit_zero origin_zero]
  simp only [View.ld_unit_zero (S := S2000x32) origin_zero, View.ld_unit_zero (S := S32x32) origin_zero, View.ld_unit_zero (S := S1x32) origin_zero]
  funext j
  obtain ⟨p, q, rfl⟩ : ∃ (p : Fin 2000) (q : Fin 32), j = ix2 p q := ⟨j 0, j 1, eq_ix2 j⟩
  show k2_pay3 (iblk2 V c 0 t) (iblk2 V c 2 t) (iblk2 V c 3 t) (ix2 p q) = rowsTimesPlus (V c main_v24) (V c main_v1) (V c main_v3) (((cfg2.win 5).blk t).view.emb (ix2 p q))
  rw [emb5_at t p q]
  refine (pay2_3 (iblk2 V c 0 t) (iblk2 V c 2 t) (iblk2 V c 3 t) p q).trans ?_
  rw [blockTimes2_at V c t p q, blk3_at V c t q]
  rfl

/-- An index of the array is in point t's block iff each coordinate is in the block's range on its axis. -/
theorem in_block4_iff (t : Fin cfg2.N) (i : S100000x32.Idx) :
    i ∈ ((cfg2.win 4).blk t).view.set ↔ ∀ a : Fin 2, win2_4.index t a * S2000x32.size a ≤ (i a).val ∧ (i a).val < win2_4.index t a * S2000x32.size a + S2000x32.size a := by
  show i ∈ ((View.whole main_v25_0).slice (win2_4.rect t)).set ↔ _
  rw [View.set_slice_whole, Rect.mem_set_unit]
  exact Iff.rfl

theorem in_block5_iff (t : Fin cfg2.N) (i : S100000x32.Idx) :
    i ∈ ((cfg2.win 5).blk t).view.set ↔ ∀ a : Fin 2, win2_5.index t a * S2000x32.size a ≤ (i a).val ∧ (i a).val < win2_5.index t a * S2000x32.size a + S2000x32.size a := by
  show i ∈ ((View.whole main_v25_1).slice (win2_5.rect t)).set ↔ _
  rw [View.set_slice_whole, Rect.mem_set_unit]
  exact Iff.rfl

/-- The point that writes row r is r / 2000. -/
def pointOf (i : S100000x32.Idx) : Fin cfg2.N :=
  ⟨(i 0).val / 2000, by rw [show cfg2.N = 50 from N_2]; have := idx2_lt0 i; omega⟩

theorem rows_tiled4 (i : S100000x32.Idx) : ∃ t : Fin cfg2.N, (cfg2.win 4).flush t = true ∧ i ∈ ((cfg2.win 4).blk t).view.set := by
  refine ⟨pointOf i, flush2_4 _, ?_⟩
  obtain ⟨-, -, -, -, -, -, -, -, e40, e41, -⟩ := block_positions (pointOf i)
  have ht : (pointOf i).val = (i 0).val / 2000 := rfl
  have h0 := idx2_lt0 i
  have h1 := idx2_lt1 i
  rw [in_block4_iff]
  intro a
  match a with
  | ⟨0, _⟩ => show win2_4.index (pointOf i) (0 : Fin 2) * 2000 ≤ (i 0).val ∧ (i 0).val < win2_4.index (pointOf i) (0 : Fin 2) * 2000 + 2000; omega
  | ⟨1, _⟩ => show win2_4.index (pointOf i) (1 : Fin 2) * 32 ≤ (i 1).val ∧ (i 1).val < win2_4.index (pointOf i) (1 : Fin 2) * 32 + 32; omega

theorem rows_tiled5 (i : S100000x32.Idx) : ∃ t : Fin cfg2.N, (cfg2.win 5).flush t = true ∧ i ∈ ((cfg2.win 5).blk t).view.set := by
  refine ⟨pointOf i, flush2_5 _, ?_⟩
  obtain ⟨-, -, -, -, -, -, -, -, -, -, e50, e51⟩ := block_positions (pointOf i)
  have ht : (pointOf i).val = (i 0).val / 2000 := rfl
  have h0 := idx2_lt0 i
  have h1 := idx2_lt1 i
  rw [in_block5_iff]
  intro a
  match a with
  | ⟨0, _⟩ => show win2_5.index (pointOf i) (0 : Fin 2) * 2000 ≤ (i 0).val ∧ (i 0).val < win2_5.index (pointOf i) (0 : Fin 2) * 2000 + 2000; omega
  | ⟨1, _⟩ => show win2_5.index (pointOf i) (1 : Fin 2) * 32 ≤ (i 1).val ∧ (i 1).val < win2_5.index (pointOf i) (1 : Fin 2) * 32 + 32; omega

/-- The first output array after the region: the rows' product of the input matrix with the first matrix. -/
theorem array4_eq (c : Dev nD) : (dat2 V c).arrAt 4 cfg2.N = rowsTimes (V c main_v24) (V c main_v0) :=
  (dat2 V c).arrAt_eq_of_cover 4 _ (fun t _ => written4_eq V c t) rows_tiled4

/-- The second output array after the region: the rows' product with the second matrix plus the bias row. -/
theorem array5_eq (c : Dev nD) : (dat2 V c).arrAt 5 cfg2.N = rowsTimesPlus (V c main_v24) (V c main_v1) (V c main_v3) :=
  (dat2 V c).arrAt_eq_of_cover 5 _ (fun t _ => written5_eq V c t) rows_tiled5

end Cert.KernelIdeal.Region2

end
-- ==== Proof.Chain.lean ====
/-
  The contents of the core's buffers at each boundary of the program, read back to the argument arrays. Before the
  first region the host transposes the three weight matrices and casts the two bias vectors to one row. The first
  region leaves x · Wsᵀ and x · Wdᵀ + bd. The host then gathers the first by source node, adds the gathered rows up by
  destination node, and adds the destination's in-degree times the second. The second region applies the third weight
  matrix and its bias; the third region applies the first two again; the host's last lines gather the two results by
  source and by destination node and add them. Each boundary's buffers are named here by these functions of the
  arguments; nothing is computed.
-/
import proofs.«175405_j25142738550916_1_alg».proof.Proof.Gen.KernelIdeal.Frame
import proofs.«175405_j25142738550916_1_alg».proof.Proof.Region0
import proofs.«175405_j25142738550916_1_alg».proof.Proof.Region1
import proofs.«175405_j25142738550916_1_alg».proof.Proof.Region2

set_option maxRecDepth 16384

noncomputable section

namespace Cert.KernelIdeal.Chain

open Idealize.ShloMosaic Idealize.ShloMosaic.TcCoe Idealize.ShloMosaic.ValueIdx Idealize.ShloMosaic.StableHlo
open Cert.KernelIdeal Cert.KernelIdeal.Gen Cert.Linear

abbrev NodeMat := (⟨S100000x32, .f32⟩ : BufTy).Contents (Elt Ideal)
abbrev EdgeIdx := (⟨S1600000, .i32⟩ : BufTy).Contents (Elt Ideal)
abbrev EdgeMat := (⟨S1600000x32, .f32⟩ : BufTy).Contents (Elt Ideal)

/-- A node index as the gather takes it: a negative index counts from the end (100000 is added), the column of
    indices is one wide. -/
def wrapIdx (s : EdgeIdx) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Message passing: the rows of a gathered by source node and summed by destination node, plus each node's
    in-degree (ones summed by destination node) times its row of b. -/
def aggregate (a b : NodeMat) (src dst : EdgeIdx) : NodeMat :=
  addf
    (Host.scatterAdd (F := Ideal) scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0 dst)
      (Host.gather gather_S100000x32_S1600000x1_S1600000x32_1_0_n_n_0_1_132 a (wrapIdx src)))
    (mulf
      (broadcastInDim S100000x32 ![0, 1] bcast_S100000x1_S100000x32_0_1
        (broadcastInDim S100000x1 ![0] bcast_S100000_S100000x1_0
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))))
      b)

/-- The edge output: a's row at the source node plus b's row at the destination node. -/
def edgeSum (a b : NodeMat) (src dst : EdgeIdx) : EdgeMat :=
  addf (F := Ideal) (φ := .f32) (Host.gather gather_S100000x32_S1600000x1_S1600000x32_1_0_n_n_0_1_132 a (wrapIdx src))
    (Host.gather gather_S100000x32_S1600000x1_S1600000x32_1_0_n_n_0_1_132 b (wrapIdx dst))

theorem aggregate_congr {a a' b b' : NodeMat} {s s' d d' : EdgeIdx} (ha : a = a') (hb : b = b') (hs : s = s') (hd : d = d') :
    aggregate a b s d = aggregate a' b' s' d' := by subst ha hb hs hd; rfl

theorem edgeSum_congr {a a' b b' : NodeMat} {s s' d d' : EdgeIdx} (ha : a = a') (hb : b = b') (hs : s = s') (hd : d = d') :
    edgeSum a b s d = edgeSum a' b' s' d' := by subst ha hb hs hd; rfl

theorem rowsTimes_congr {x x' : FVec Ideal SN .f32} {w w' : FVec Ideal SW .f32} (hx : x = x') (hw : w = w') :
    rowsTimes x w = rowsTimes x' w' := by subst hx hw; rfl

theorem rowsTimesPlus_congr {x x' : FVec Ideal SN .f32} {w w' : FVec Ideal SW .f32} {b b' : FVec Ideal SB .f32}
    (hx : x = x') (hw : w = w') (hb : b = b') : rowsTimesPlus x w b = rowsTimesPlus x' w' b' := by subst hx hw hb; rfl

variable (m : (ℓ : Loc nD τ sig) → Buf (Elt Ideal) ℓ) (ρ : Dev nD → PrngReg) (c : Dev nD)

/-! ## The program's values as functions of the arguments -/

def wsT : FVec Ideal SW .f32 := transpose S32x32 [1, 0] (m ((c : Thread nD τ).loc main_arg3)) transposes_S32x32_S32x32_1_0
def wdT : FVec Ideal SW .f32 := transpose S32x32 [1, 0] (m ((c : Thread nD τ).loc main_arg4)) transposes_S32x32_S32x32_1_0
def wrT : FVec Ideal SW .f32 := transpose S32x32 [1, 0] (m ((c : Thread nD τ).loc main_arg6)) transposes_S32x32_S32x32_1_0
def bdRow : FVec Ideal SB .f32 := shapeCast S1x32 (m ((c : Thread nD τ).loc main_arg5)) shapeCasts_S32_S1x32
def brRow : FVec Ideal SB .f32 := shapeCast S1x32 (m ((c : Thread nD τ).loc main_arg7)) shapeCasts_S32_S1x32
def srcFeat : NodeMat := rowsTimes (m ((c : Thread nD τ).loc main_arg0)) (wsT m c)
def dstFeat : NodeMat := rowsTimesPlus (m ((c : Thread nD τ).loc main_arg0)) (wdT m c) (bdRow m c)
def agg : NodeMat := aggregate (srcFeat m c) (dstFeat m c) (m ((c : Thread nD τ).loc main_arg1)) (m ((c : Thread nD τ).loc main_arg2))
def out : NodeMat := rowsTimesPlus (agg m c) (wrT m c) (brRow m c)
def src2 : NodeMat := rowsTimes (out m c) (wsT m c)
def dst2 : NodeMat := rowsTimesPlus (out m c) (wdT m c) (bdRow m c)
def result : EdgeMat := edgeSum (src2 m c) (dst2 m c) (m ((c : Thread nD τ).loc main_arg1)) (m ((c : Thread nD τ).loc main_arg2))

/-! ## Before the first region -/
theorem W1_arg0 : W1 m ρ c (Proc.devRef .tc main_arg0) = (m ((c : Thread nD τ).loc main_arg0)) := by
  show StableHlo.after hostOps0 (W0 m ρ c) (Proc.devRef .tc main_arg0) = _
  after_results <;> rfl
theorem W1_arg1 : W1 m ρ c (Proc.devRef .tc main_arg1) = (m ((c : Thread nD τ).loc main_arg1)) := by
  show StableHlo.after hostOps0 (W0 m ρ c) (Proc.devRef .tc main_arg1) = _
  after_results <;> rfl
theorem W1_arg2 : W1 m ρ c (Proc.devRef .tc main_arg2) = (m ((c : Thread nD τ).loc main_arg2)) := by
  show StableHlo.after hostOps0 (W0 m ρ c) (Proc.devRef .tc main_arg2) = _
  after_results <;> rfl
theorem W1_v0 : W1 m ρ c (Proc.devRef .tc main_v0) = wsT m c := by
  show StableHlo.after hostOps0 (W0 m ρ c) (Proc.devRef .tc main_v0) = _
  after_results <;> rfl
theorem W1_v1 : W1 m ρ c (Proc.devRef .tc main_v1) = wdT m c := by
  show StableHlo.after hostOps0 (W0 m ρ c) (Proc.devRef .tc main_v1) = _
  after_results <;> rfl
theorem W1_v2 : W1 m ρ c (Proc.devRef .tc main_v2) = wrT m c := by
  show StableHlo.after hostOps0 (W0 m ρ c) (Proc.devRef .tc main_v2) = _
  after_results <;> rfl
theorem W1_v3 : W1 m ρ c (Proc.devRef .tc main_v3) = bdRow m c := by
  show StableHlo.after hostOps0 (W0 m ρ c) (Proc.devRef .tc main_v3) = _
  after_results <;> rfl
theorem W1_v4 : W1 m ρ c (Proc.devRef .tc main_v4) = brRow m c := by
  show StableHlo.after hostOps0 (W0 m ρ c) (Proc.devRef .tc main_v4) = _
  after_results <;> rfl

/-! ## After the first region -/
theorem W2_arg0 : W2 m ρ c (Proc.devRef .tc main_arg0) = (m ((c : Thread nD τ).loc main_arg0)) :=
  (W2_arr m ρ c 0).trans (((dat0 (V1 m ρ) c).arrAt_in 0 rfl _).trans ((A_eq0 (V1 m ρ) c 0).trans (W1_arg0 m ρ c)))
theorem W2_v0 : W2 m ρ c (Proc.devRef .tc main_v0) = wsT m c :=
  (W2_arr m ρ c 1).trans (((dat0 (V1 m ρ) c).arrAt_in 1 rfl _).trans ((A_eq0 (V1 m ρ) c 1).trans (W1_v0 m ρ c)))
theorem W2_v1 : W2 m ρ c (Proc.devRef .tc main_v1) = wdT m c :=
  (W2_arr m ρ c 2).trans (((dat0 (V1 m ρ) c).arrAt_in 2 rfl _).trans ((A_eq0 (V1 m ρ) c 2).trans (W1_v1 m ρ c)))
theorem W2_v3 : W2 m ρ c (Proc.devRef .tc main_v3) = bdRow m c :=
  (W2_arr m ρ c 3).trans (((dat0 (V1 m ρ) c).arrAt_in 3 rfl _).trans ((A_eq0 (V1 m ρ) c 3).trans (W1_v3 m ρ c)))
theorem W2_v2 : W2 m ρ c (Proc.devRef .tc main_v2) = wrT m c :=
  (W2_of_ne m ρ c main_v2 (by decide)).trans (W1_v2 m ρ c)
theorem W2_v4 : W2 m ρ c (Proc.devRef .tc main_v4) = brRow m c :=
  (W2_of_ne m ρ c main_v4 (by decide)).trans (W1_v4 m ρ c)
theorem W2_arg1 : W2 m ρ c (Proc.devRef .tc main_arg1) = (m ((c : Thread nD τ).loc main_arg1)) :=
  (W2_of_ne m ρ c main_arg1 (by decide)).trans (W1_arg1 m ρ c)
theorem W2_arg2 : W2 m ρ c (Proc.devRef .tc main_arg2) = (m ((c : Thread nD τ).loc main_arg2)) :=
  (W2_of_ne m ρ c main_arg2 (by decide)).trans (W1_arg2 m ρ c)
theorem W2_v5_0 : W2 m ρ c (Proc.devRef .tc main_v5_0) = srcFeat m c :=
  (W2_arr m ρ c 4).trans ((Region0.array4_eq (V1 m ρ) c).trans (rowsTimes_congr (W1_arg0 m ρ c) (W1_v0 m ρ c)))
theorem W2_v5_1 : W2 m ρ c (Proc.devRef .tc main_v5_1) = dstFeat m c :=
  (W2_arr m ρ c 5).trans ((Region0.array5_eq (V1 m ρ) c).trans (rowsTimesPlus_congr (W1_arg0 m ρ c) (W1_v1 m ρ c) (W1_v3 m ρ c)))

/-! ## Before the second region -/
set_option maxHeartbeats 4000000 in
theorem W3_v23 : W3 m ρ c (Proc.devRef .tc main_v23) = agg m c := by
  have e : W3 m ρ c (Proc.devRef .tc main_v23) = aggregate (W2 m ρ c (Proc.devRef .tc main_v5_0)) (W2 m ρ c (Proc.devRef .tc main_v5_1)) (W2 m ρ c (Proc.devRef .tc main_arg1)) (W2 m ρ c (Proc.devRef .tc main_arg2)) := by
    show StableHlo.after hostOps1 (W2 m ρ c) (Proc.devRef .tc main_v23) = _
    after_results_simp <;> rfl
  exact e.trans (aggregate_congr (W2_v5_0 m ρ c) (W2_v5_1 m ρ c) (W2_arg1 m ρ c) (W2_arg2 m ρ c))
theorem W3_v0 : W3 m ρ c (Proc.devRef .tc main_v0) = wsT m c := by
  have e : W3 m ρ c (Proc.devRef .tc main_v0) = W2 m ρ c (Proc.devRef .tc main_v0) := by
    show StableHlo.after hostOps1 (W2 m ρ c) (Proc.devRef .tc main_v0) = _
    after_results <;> rfl
  exact e.trans (W2_v0 m ρ c)
theorem W3_v1 : W3 m ρ c (Proc.devRef .tc main_v1) = wdT m c := by
  have e : W3 m ρ c (Proc.devRef .tc main_v1) = W2 m ρ c (Proc.devRef .tc main_v1) := by
    show StableHlo.after hostOps1 (W2 m ρ c) (Proc.devRef .tc main_v1) = _
    after_results <;> rfl
  exact e.trans (W2_v1 m ρ c)
theorem W3_v2 : W3 m ρ c (Proc.devRef .tc main_v2) = wrT m c := by
  have e : W3 m ρ c (Proc.devRef .tc main_v2) = W2 m ρ c (Proc.devRef .tc main_v2) := by
    show StableHlo.after hostOps1 (W2 m ρ c) (Proc.devRef .tc main_v2) = _
    after_results <;> rfl
  exact e.trans (W2_v2 m ρ c)
theorem W3_v3 : W3 m ρ c (Proc.devRef .tc main_v3) = bdRow m c := by
  have e : W3 m ρ c (Proc.devRef .tc main_v3) = W2 m ρ c (Proc.devRef .tc main_v3) := by
    show StableHlo.after hostOps1 (W2 m ρ c) (Proc.devRef .tc main_v3) = _
    after_results <;> rfl
  exact e.trans (W2_v3 m ρ c)
theorem W3_v4 : W3 m ρ c (Proc.devRef .tc main_v4) = brRow m c := by
  have e : W3 m ρ c (Proc.devRef .tc main_v4) = W2 m ρ c (Proc.devRef .tc main_v4) := by
    show StableHlo.after hostOps1 (W2 m ρ c) (Proc.devRef .tc main_v4) = _
    after_results <;> rfl
  exact e.trans (W2_v4 m ρ c)
theorem W3_arg1 : W3 m ρ c (Proc.devRef .tc main_arg1) = (m ((c : Thread nD τ).loc main_arg1)) := by
  have e : W3 m ρ c (Proc.devRef .tc main_arg1) = W2 m ρ c (Proc.devRef .tc main_arg1) := by
    show StableHlo.after hostOps1 (W2 m ρ c) (Proc.devRef .tc main_arg1) = _
    after_results <;> rfl
  exact e.trans (W2_arg1 m ρ c)
theorem W3_arg2 : W3 m ρ c (Proc.devRef .tc main_arg2) = (m ((c : Thread nD τ).loc main_arg2)) := by
  have e : W3 m ρ c (Proc.devRef .tc main_arg2) = W2 m ρ c (Proc.devRef .tc main_arg2) := by
    show StableHlo.after hostOps1 (W2 m ρ c) (Proc.devRef .tc main_arg2) = _
    after_results <;> rfl
  exact e.trans (W2_arg2 m ρ c)

/-! ## After the second region -/
theorem W4_v24 : W4 m ρ c (Proc.devRef .tc main_v24) = out m c :=
  (W4_arr m ρ c 3).trans ((Region1.array3_eq (V3 m ρ) c).trans (rowsTimesPlus_congr (W3_v23 m ρ c) (W3_v2 m ρ c) (W3_v4 m ρ c)))
theorem W4_v0 : W4 m ρ c (Proc.devRef .tc main_v0) = wsT m c :=
  (W4_of_ne m ρ c main_v0 (by decide)).trans (W3_v0 m ρ c)
theorem W4_v1 : W4 m ρ c (Proc.devRef .tc main_v1) = wdT m c :=
  (W4_of_ne m ρ c main_v1 (by decide)).trans (W3_v1 m ρ c)
theorem W4_v3 : W4 m ρ c (Proc.devRef .tc main_v3) = bdRow m c :=
  (W4_of_ne m ρ c main_v3 (by decide)).trans (W3_v3 m ρ c)
theorem W4_arg1 : W4 m ρ c (Proc.devRef .tc main_arg1) = (m ((c : Thread nD τ).loc main_arg1)) :=
  (W4_of_ne m ρ c main_arg1 (by decide)).trans (W3_arg1 m ρ c)
theorem W4_arg2 : W4 m ρ c (Proc.devRef .tc main_arg2) = (m ((c : Thread nD τ).loc main_arg2)) :=
  (W4_of_ne m ρ c main_arg2 (by decide)).trans (W3_arg2 m ρ c)

/-! ## After the third region -/
theorem W5_v25_0 : W5 m ρ c (Proc.devRef .tc main_v25_0) = src2 m c :=
  (W5_arr m ρ c 4).trans ((Region2.array4_eq (V4 m ρ) c).trans (rowsTimes_congr (W4_v24 m ρ c) (W4_v0 m ρ c)))
theorem W5_v25_1 : W5 m ρ c (Proc.devRef .tc main_v25_1) = dst2 m c :=
  (W5_arr m ρ c 5).trans ((Region2.array5_eq (V4 m ρ) c).trans (rowsTimesPlus_congr (W4_v24 m ρ c) (W4_v1 m ρ c) (W4_v3 m ρ c)))
theorem W5_arg1 : W5 m ρ c (Proc.devRef .tc main_arg1) = (m ((c : Thread nD τ).loc main_arg1)) :=
  (W5_of_ne m ρ c main_arg1 (by decide)).trans (W4_arg1 m ρ c)
theorem W5_arg2 : W5 m ρ c (Proc.devRef .tc main_arg2) = (m ((c : Thread nD τ).loc main_arg2)) :=
  (W5_of_ne m ρ c main_arg2 (by decide)).trans (W4_arg2 m ρ c)

/-! ## The result -/
set_option maxHeartbeats 4000000 in
theorem W6_v40 : W6 m ρ c (Proc.devRef .tc main_v40) = result m c := by
  have e : W6 m ρ c (Proc.devRef .tc main_v40) = edgeSum (W5 m ρ c (Proc.devRef .tc main_v25_0)) (W5 m ρ c (Proc.devRef .tc main_v25_1)) (W5 m ρ c (Proc.devRef .tc main_arg1)) (W5 m ρ c (Proc.devRef .tc main_arg2)) := by
    show StableHlo.after hostOps3 (W5 m ρ c) (Proc.devRef .tc main_v40) = _
    after_results_simp <;> rfl
  exact e.trans (edgeSum_congr (W5_v25_0 m ρ c) (W5_v25_1 m ρ c) (W5_arg1 m ρ c) (W5_arg2 m ρ c))

end Cert.KernelIdeal.Chain

end
-- ==== Proof.Bridge.lean ====
/-
  The reference's result is the kernel program's. The reference is the same chain on the host: each linear layer is its
  general product with the plain dimension numbers (plus the bias vector laid along every row), which entry by entry is
  the sum the regions leave; message passing and the edge output are the same host operations on both sides. So once
  the regions' arrays are written as those products, the two results are one term of the arguments.
-/
import proofs.«175405_j25142738550916_1_alg».proof.Proof.Chain
import proofs.«175405_j25142738550916_1_alg».proof.Proof.Gen.ReferenceIdeal.Run

set_option maxRecDepth 16384

noncomputable section

namespace Cert.Proof.Bridge

open Idealize.ShloMosaic Idealize.ShloMosaic.TcCoe Cert.Linear Cert.KernelIdeal.Chain

variable [Cert.KernelIdeal.Facts] [Cert.ReferenceIdeal.Facts]

/-- The reference's dimension numbers are the plain ones. -/
theorem dot_plain : Cert.ReferenceIdeal.dot_S100000x32_S32x32_S100000x32_1_0_0_1_n_n = DotDims.plain 100000 32 32 := rfl

set_option maxHeartbeats 4000000 in
/-- From memories agreeing on the arguments, the reference's result term is the kernel program's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v51 (F := Ideal) m' c = result m c := by
  unfold Cert.ReferenceIdeal.Value.res_main_v51
  rw [h0, h1, h2, h3, h4, h5, h6, h7]
  unfold result src2 dst2 out agg srcFeat dstFeat bdRow brRow wsT wdT wrT
  simp only [rowsTimes_eq_dot _ dot_plain,
    rowsTimesPlus_eq_dot_add _ dot_plain _ _ _ Cert.KernelIdeal.Facts₀.shapeCasts_S32_S1x32 Cert.ReferenceIdeal.Facts₀.bcast_S32_S1x32_1 Cert.ReferenceIdeal.Facts₀.bcast_S1x32_S100000x32_0_1]
  rfl

end Cert.Proof.Bridge

end
-- ==== Proof.lean ====
/-
  Two stacked rounds of a graph layer over 100000 nodes and 1600000 edges: x · Wsᵀ and x · Wdᵀ + bd per node; the
  first gathered by source node and summed by destination node, plus the in-degree times the second; then · Wrᵀ + br;
  then the first two layers again, gathered by source and by destination node and added per edge. The kernel program
  computes the three linear layers in three grid regions of 50 row blocks each, with the gathers and sums on the host
  between them; the reference computes everything on the host.
  The frames of the two kernel programs are the generated ones; the reference's frame is its generated run with the
  result dropped. No operation was rewritten by the idealization, so there is nothing to preserve. Over the extended
  reals the two programs end with the same result: each region's output array is the host's general product entry by
  entry (a sum of 32 products, plus a bias entry) — sums and products only, so no entry need be finite — and the host
  operations around the regions are the reference's own.
-/
import proofs.«175405_j25142738550916_1_alg».proof.Defs
import proofs.«175405_j25142738550916_1_alg».proof.Proof.Gen.Kernel
import proofs.«175405_j25142738550916_1_alg».proof.Proof.Gen.Kernel.Frame
import proofs.«175405_j25142738550916_1_alg».proof.Proof.Gen.KernelIdeal
import proofs.«175405_j25142738550916_1_alg».proof.Proof.Gen.KernelIdeal.Frame
import proofs.«175405_j25142738550916_1_alg».proof.Proof.Gen.ReferenceIdeal
import proofs.«175405_j25142738550916_1_alg».proof.Proof.Gen.ReferenceIdeal.Run
import proofs.«175405_j25142738550916_1_alg».proof.Proof.Gen.Pre_finite_inputs
import proofs.«175405_j25142738550916_1_alg».proof.Proof.KRun
import proofs.«175405_j25142738550916_1_alg».proof.Proof.Chain
import proofs.«175405_j25142738550916_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the edge output of the two stacked rounds, as one function of the arguments. -/
theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun r h c => ⟨(h c).1.trans (Cert.KernelIdeal.Chain.W6_v40 m ρ c), (h c).2⟩)
      (Cert.KernelIdeal.Whole.run (F := Ideal) m ρ)
  · exact (θ_run Cert.ReferenceIdeal.defs _ _).mono
      (fun r h c => ⟨(h c).1.trans (Cert.Proof.Bridge.result_eq m m' c (hagree c).1 (hagree c).2.1 (hagree c).2.2.1 (hagree c).2.2.2.1 (hagree c).2.2.2.2.1 (hagree c).2.2.2.2.2.1 (hagree c).2.2.2.2.2.2.1 (hagree c).2.2.2.2.2.2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
